-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x224x224 : Shape := ⟨4, ![64, 3, 224, 224]⟩
abbrev S768x768 : Shape := ⟨2, ![768, 768]⟩
abbrev S768 : Shape := ⟨1, ![768]⟩
abbrev S197x768 : Shape := ⟨2, ![197, 768]⟩
abbrev S1x1x768 : Shape := ⟨3, ![1, 1, 768]⟩
abbrev S_ : Shape := ⟨0, ![]⟩

class Facts : Prop where
  bcast_S_S64x3x224x224 : S_.BroadcastsInDim S64x3x224x224 (![] : Fin 0 → Fin S64x3x224x224.rank)
  reducesTo_S64x3x224x224_S_d0_1_2_3 : S64x3x224x224.ReducesTo [0, 1, 2, 3] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S197x768 : S_.BroadcastsInDim S197x768 (![] : Fin 0 → Fin S197x768.rank)
  reducesTo_S197x768_S_d0_1 : S197x768.ReducesTo [0, 1] S_
  bcast_S_S1x1x768 : S_.BroadcastsInDim S1x1x768 (![] : Fin 0 → Fin S1x1x768.rank)
  reducesTo_S1x1x768_S_d0_1_2 : S1x1x768.ReducesTo [0, 1, 2] S_

variable [Facts]

def fn_part1 {F : FTy → Type} [FloatOps F] (main_arg4 : FVec F S1x1x768 .f32) (main_v13 : IVec S_ 1) (main_v16 : IVec S197x768 1) : IVec S_ 1 :=
  let main_c_5 : IVec S_ 1 := constantI S_ 1 1#1
  let main_v17 : IVec S_ 1 := (fun x v => Host.reduce IntOp.andi x v reducesTo_S197x768_S_d0_1 h_S_) main_v16 main_c_5
  let main_v18 : IVec S_ 1 := andi main_v13 main_v17
  let main_v19 : FVec F S1x1x768 .f32 := Host.absf main_arg4
  let main_cst_6 : FVec F S_ .f32 := constant S_ .f32 0x7F800000#32
  let main_v20 : FVec F S1x1x768 .f32 := broadcastInDim S1x1x768 ![] bcast_S_S1x1x768 main_cst_6
  let main_v21 : IVec S1x1x768 1 := cmpf .olt main_v19 main_v20
  let main_c_7 : IVec S_ 1 := constantI S_ 1 1#1
  let main_v22 : IVec S_ 1 := (fun x v => Host.reduce IntOp.andi x v reducesTo_S1x1x768_S_d0_1_2 h_S_) main_v21 main_c_7
  let main_v23 : IVec S_ 1 := andi main_v18 main_v22
  main_v23

def fn {F : FTy → Type} [FloatOps F] (main_arg0 : FVec F S64x3x224x224 .f32) (main_arg1 : FVec F S768x768 .f32) (main_arg2 : FVec F S768 .f32) (main_arg3 : FVec F S197x768 .f32) (main_arg4 : FVec F S1x1x768 .f32) : IVec S_ 1 :=
  let main_v0 : FVec F S64x3x224x224 .f32 := Host.absf main_arg0
  let main_cst : FVec F S_ .f32 := constant S_ .f32 0x7F800000#32
  let main_v1 : FVec F S64x3x224x224 .f32 := broadcastInDim S64x3x224x224 ![] bcast_S_S64x3x224x224 main_cst
  let main_v2 : IVec S64x3x224x224 1 := cmpf .olt main_v0 main_v1
  let main_c : IVec S_ 1 := constantI S_ 1 1#1
  let main_v3 : IVec S_ 1 := (fun x v => Host.reduce IntOp.andi x v reducesTo_S64x3x224x224_S_d0_1_2_3 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S197x768 .f32 := Host.absf main_arg3
  let main_cst_4 : FVec F S_ .f32 := constant S_ .f32 0x7F800000#32
  let main_v15 : FVec F S197x768 .f32 := broadcastInDim S197x768 ![] bcast_S_S197x768 main_cst_4
  let main_v16 : IVec S197x768 1 := cmpf .olt main_v14 main_v15
  fn_part1 (F := F) main_arg4 main_v13 main_v16
-- ==== Kernel.lean ====
abbrev S64x3x224x224 : Shape := ⟨4, ![64, 3, 224, 224]⟩
abbrev S768x768 : Shape := ⟨2, ![768, 768]⟩
abbrev S768 : Shape := ⟨1, ![768]⟩
abbrev S197x768 : Shape := ⟨2, ![197, 768]⟩
abbrev S1x1x768 : Shape := ⟨3, ![1, 1, 768]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S_ : Shape := ⟨0, ![]⟩
abbrev S64x197x768 : Shape := ⟨3, ![64, 197, 768]⟩
abbrev S1x768 : Shape := ⟨2, ![1, 768]⟩
abbrev S196x768 : Shape := ⟨2, ![196, 768]⟩
abbrev S8x197x768 : Shape := ⟨3, ![8, 197, 768]⟩
abbrev S1x197x768 : Shape := ⟨3, ![1, 197, 768]⟩

abbrev nBuf : Space → Nat
  | .hbm => 21
  | .vmem => 6
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S197x768, .f32⟩
  | .hbm, ⟨4, _⟩ => ⟨S1x1x768, .f32⟩
  | .hbm, ⟨5, _⟩ => ⟨S64x3x14x16x14x16, .f32⟩
  | .hbm, ⟨6, _⟩ => ⟨S64x14x14x3x16x16, .f32⟩
  | .hbm, ⟨7, _⟩ => ⟨S64x196x768, .f32⟩
  | .hbm, ⟨8, _⟩ => ⟨S_, .i32⟩
  | .hbm, ⟨9, _⟩ => ⟨S_, .f32⟩
  | .hbm, ⟨10, _⟩ => ⟨S64x197x768, .f32⟩
  | .hbm, ⟨11, _⟩ => ⟨S64x197x768, .bf16⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S196x768, .f32⟩
  | .hbm, ⟨17, _⟩ => ⟨S196x768, .f32⟩
  | .hbm, ⟨18, _⟩ => ⟨S196x768, .f32⟩
  | .hbm, ⟨19, _⟩ => ⟨S197x768, .f32⟩
  | .hbm, ⟨20, _⟩ => ⟨S64x197x768, .f32⟩
  | .local _ .vmem, ⟨0, _⟩ => ⟨S8x197x768, .bf16⟩
  | .local _ .vmem, ⟨1, _⟩ => ⟨S8x197x768, .bf16⟩
  | .local _ .vmem, ⟨2, _⟩ => ⟨S768x768, .f32⟩
  | .local _ .vmem, ⟨3, _⟩ => ⟨S197x768, .f32⟩
  | .local _ .vmem, ⟨4, _⟩ => ⟨S8x197x768, .f32⟩
  | .local _ .vmem, ⟨5, _⟩ => ⟨S8x197x768, .f32⟩
  | _, _ => ⟨S64x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x197x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S197x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x197x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x3x224x224_S64x3x14x16x14x16 : S64x3x224x224.ShapeCasts S64x3x14x16x14x16
  transposes_S64x3x14x16x14x16_S64x14x14x3x16x16_0_2_4_1_3_5 : S64x3x14x16x14x16.Transposes [0, 2, 4, 1, 3, 5] S64x14x14x3x16x16
  shapeCasts_S64x14x14x3x16x16_S64x196x768 : S64x14x14x3x16x16.ShapeCasts S64x196x768
  pads_S64x196x768_S64x197x768_000_100_000 : S64x196x768.Pads (![0, 1, 0] : Fin 3 → Nat) ![0, 0, 0] ![0, 0, 0] S64x197x768
  h_S_ : 0 < S_.numel
  bitsLt_bf16_f32 : FTy.bits .bf16 < FTy.bits .f32
  shapeCasts_S1x1x768_S1x768 : S1x1x768.ShapeCasts S1x768
  slices_S197x768_S1x768_0_0 : S197x768.Slices ![0, 0] S1x768
  bcast_S768_S1x768_1 : S768.BroadcastsInDim S1x768 (![1] : Fin 1 → Fin S1x768.rank)
  slices_S197x768_S196x768_1_0 : S197x768.Slices ![1, 0] S196x768
  bcast_S1x768_S196x768_0_1 : S1x768.BroadcastsInDim S196x768 (![0, 1] : Fin 2 → Fin S196x768.rank)
  concatenates_S1x768_S196x768_S197x768_d0 : Shape.Concatenates [S1x768, S196x768] S197x768 0
  inb_S768x768_S768x768_0_0 : ∀ a, (![0, 0] : Fin 2 → Nat) a + S768x768.size a ≤ S768x768.size a
  h_S768x768 : 0 < S768x768.numel
  inb_S197x768_S197x768_0_0 : ∀ a, (![0, 0] : Fin 2 → Nat) a + S197x768.size a ≤ S197x768.size a
  h_S197x768 : 0 < S197x768.numel
  shapeCasts_S197x768_S197x768 : S197x768.ShapeCasts S197x768
  inb_S8x197x768_S1x197x768_0_0_0 : ∀ a, (![0, 0, 0] : Fin 3 → Nat) a + S1x197x768.size a ≤ S8x197x768.size a
  h_S1x197x768 : 0 < S1x197x768.numel
  shapeCasts_S1x197x768_S197x768 : S1x197x768.ShapeCasts S197x768
  shapeCasts_S197x768_S1x197x768 : S197x768.ShapeCasts S1x197x768
  inb_S8x197x768_S1x197x768_1_0_0 : ∀ a, (![1, 0, 0] : Fin 3 → Nat) a + S1x197x768.size a ≤ S8x197x768.size a
  inb_S8x197x768_S1x197x768_2_0_0 : ∀ a, (![2, 0, 0] : Fin 3 → Nat) a + S1x197x768.size a ≤ S8x197x768.size a
  inb_S8x197x768_S1x197x768_3_0_0 : ∀ a, (![3, 0, 0] : Fin 3 → Nat) a + S1x197x768.size a ≤ S8x197x768.size a
  inb_S8x197x768_S1x197x768_4_0_0 : ∀ a, (![4, 0, 0] : Fin 3 → Nat) a + S1x197x768.size a ≤ S8x197x768.size a
  inb_S8x197x768_S1x197x768_5_0_0 : ∀ a, (![5, 0, 0] : Fin 3 → Nat) a + S1x197x768.size a ≤ S8x197x768.size a
  inb_S8x197x768_S1x197x768_6_0_0 : ∀ a, (![6, 0, 0] : Fin 3 → Nat) a + S1x197x768.size a ≤ S8x197x768.size a
  inb_S8x197x768_S1x197x768_7_0_0 : ∀ a, (![7, 0, 0] : Fin 3 → Nat) a + S1x197x768.size a ≤ S8x197x768.size a
  dot_S197x768_S768x768_S197x768_1_0_0_1_n_n_wf : DotDims.WF S197x768 S768x768 S197x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x197x768.size a ≤ S64x197x768.size a
  hwx0_0 : ∀ i : grid0.Coords, EltTy.bits .bf16 = 32 ∨ (Rect.block (s := S64x197x768) S8x197x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S197x768.size a ≤ S197x768.size a
  hwx0_2 : ∀ i : grid0.Coords, EltTy.bits .f32 = 32 ∨ (Rect.block (s := S197x768) S197x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x197x768.size a ≤ S64x197x768.size a
  hwx0_3 : ∀ i : grid0.Coords, EltTy.bits .f32 = 32 ∨ (Rect.block (s := S64x197x768) S8x197x768.size (cc0_transform_3 i) (hinb0_3 i)).WholeWords (EltTy.packing .f32)

variable [Facts₀]

def dot_S197x768_S768x768_S197x768_1_0_0_1_n_n : DotDims S197x768 S768x768 S197x768 where
  lhsContracting := [1]
  rhsContracting := [0]
  lhsNonContracting := [0]
  rhsNonContracting := [1]
  lhsBatch := []
  rhsBatch := []
  wf := dot_S197x768_S768x768_S197x768_1_0_0_1_n_n_wf

abbrev win0_0 : Pipeline.Window sig grid0 :=
  Pipeline.Window.ofSpec (Memref.whole main_v4) S8x197x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S197x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8x197x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x3x224x224 : Shape := ⟨4, ![64, 3, 224, 224]⟩
abbrev S768x768 : Shape := ⟨2, ![768, 768]⟩
abbrev S768 : Shape := ⟨1, ![768]⟩
abbrev S197x768 : Shape := ⟨2, ![197, 768]⟩
abbrev S1x1x768 : Shape := ⟨3, ![1, 1, 768]⟩
abbrev S64x3x14x16x14x16 : Shape := ⟨6, ![64, 3, 14, 16, 14, 16]⟩
abbrev S64x14x14x3x16x16 : Shape := ⟨6, ![64, 14, 14, 3, 16, 16]⟩
abbrev S64x196x768 : Shape := ⟨3, ![64, 196, 768]⟩
abbrev S64x1x768 : Shape := ⟨3, ![64, 1, 768]⟩
abbrev S64x197x768 : Shape := ⟨3, ![64, 197, 768]⟩
abbrev S1x197x768 : Shape := ⟨3, ![1, 197, 768]⟩

abbrev nBuf : Space → Nat
  | .hbm => 17
  | .vmem => 0
  | .smem => 0
  | _ => 0

abbrev bufTy : (tb : Table) → Fin (tcTables nBuf tb) → BufTy
  | .hbm, ⟨0, _⟩ => ⟨S64x3x224x224, .f32⟩
  | .hbm, ⟨1, _⟩ => ⟨S768x768, .f32⟩
  | .hbm, ⟨2, _⟩ => ⟨S768, .f32⟩
  | .hbm, ⟨3, _⟩ => ⟨S197x768, .f32⟩
  | .hbm, ⟨4, _⟩ => ⟨S1x1x768, .f32⟩
  | .hbm, ⟨5, _⟩ => ⟨S64x3x14x16x14x16, .f32⟩
  | .hbm, ⟨6, _⟩ => ⟨S64x14x14x3x16x16, .f32⟩
  | .hbm, ⟨7, _⟩ => ⟨S64x196x768, .f32⟩
  | .hbm, ⟨8, _⟩ => ⟨S64x196x768, .f32⟩
  | .hbm, ⟨9, _⟩ => ⟨S1x1x768, .f32⟩
  | .hbm, ⟨10, _⟩ => ⟨S64x196x768, .f32⟩
  | .hbm, ⟨11, _⟩ => ⟨S64x196x768, .f32⟩
  | .hbm, ⟨12, _⟩ => ⟨S64x1x768, .f32⟩
  | .hbm, ⟨13, _⟩ => ⟨S64x197x768, .f32⟩
  | .hbm, ⟨14, _⟩ => ⟨S1x197x768, .f32⟩
  | .hbm, ⟨15, _⟩ => ⟨S64x197x768, .f32⟩
  | .hbm, ⟨16, _⟩ => ⟨S64x197x768, .f32⟩
  | _, _ => ⟨S64x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  shapeCasts_S64x3x224x224_S64x3x14x16x14x16 : S64x3x224x224.ShapeCasts S64x3x14x16x14x16
  transposes_S64x3x14x16x14x16_S64x14x14x3x16x16_0_2_4_1_3_5 : S64x3x14x16x14x16.Transposes [0, 2, 4, 1, 3, 5] S64x14x14x3x16x16
  shapeCasts_S64x14x14x3x16x16_S64x196x768 : S64x14x14x3x16x16.ShapeCasts S64x196x768
  bcast_S768_S1x1x768_2 : S768.BroadcastsInDim S1x1x768 (![2] : Fin 1 → Fin S1x1x768.rank)
  bcast_S1x1x768_S64x196x768_0_1_2 : S1x1x768.BroadcastsInDim S64x196x768 (![0, 1, 2] : Fin 3 → Fin S64x196x768.rank)
  bcast_S1x1x768_S64x1x768_0_1_2 : S1x1x768.BroadcastsInDim S64x1x768 (![0, 1, 2] : Fin 3 → Fin S64x1x768.rank)
  concatenates_S64x1x768_S64x196x768_S64x197x768_d1 : Shape.Concatenates [S64x1x768, S64x196x768] S64x197x768 1
  bcast_S197x768_S1x197x768_1_2 : S197x768.BroadcastsInDim S1x197x768 (![1, 2] : Fin 2 → Fin S1x197x768.rank)
  bcast_S1x197x768_S64x197x768_0_1_2 : S1x197x768.BroadcastsInDim S64x197x768 (![0, 1, 2] : Fin 3 → Fin S64x197x768.rank)
  dot_S64x196x768_S768x768_S64x196x768_2_0_01_1_n_n_wf : DotDims.WF S64x196x768 S768x768 S64x196x768 [2] [0] [0, 1] [1] [] []

variable [Facts₀]

def dot_S64x196x768_S768x768_S64x196x768_2_0_01_1_n_n : DotDims S64x196x768 S768x768 S64x196x768 where
  lhsContracting := [2]
  rhsContracting := [0]
  lhsNonContracting := [0, 1]
  rhsNonContracting := [1]
  lhsBatch := []
  rhsBatch := []
  wf := dot_S64x196x768_S768x768_S64x196x768_2_0_01_1_n_n_wf

class Facts : Prop extends Facts₀ where

variable [Facts]
-- ==== Proof.Slab.lean ====
/-
  One image's rows of the output block.  The kernel body handles the eight images of a block one after the
  other, each time with the same arithmetic: the image's 197 rows of patch features (row 0 is the inserted
  zero row) times the 768 x 768 projection, plus the 197 x 768 additive table.  `slab` is that arithmetic
  on one image; every one of the body's eight stored values is `slab` of the image's rows, and at the exact
  instance `slab` read at (row n, column d) is  sum_f x[n, f] * W[f, d] + A[n, d].
-/
import proofs.«176291_j30305289240876_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Tokens

open Cert.KernelIdeal Cert.KernelIdeal.Gen Idealize.ShloMosaic Idealize.ShloMosaic.TcCoe Idealize.SL.Sem
open Idealize.ShloMosaic.ValueIdx

variable {F : FTy → Type} [FloatOps F]

/-- The rows of one image: its feature rows times the projection (rounded to bf16, which the exact
    instance ignores) into a zero accumulator, plus the additive table, kept as a one-image slab. -/
def slab (W : Vec F S768x768 .f32) (A : Vec F S197x768 .f32) (x : Vec F S1x197x768 .bf16) : FVec F S1x197x768 .f32 :=
  shapeCast S1x197x768
    (addf (matmul dot_S197x768_S768x768_S197x768_1_0_0_1_n_n none (shapeCast S197x768 x shapeCasts_S1x197x768_S197x768)
        (truncf .bf16 W bitsLt_bf16_f32) (constant S197x768 .f32 0x00000000#32))
      (shapeCast S197x768 A shapeCasts_S197x768_S197x768))
    shapeCasts_S197x768_S1x197x768

/-- The block the body leaves: eight stores, one image each, all of them `slab`. -/
theorem out_eq_slabs (x0 : Vec F S8x197x768 .bf16) (x1 : Vec F S768x768 .f32) (x2 : Vec F S197x768 .f32) :
    out0_3 x0 x1 x2 = View.canon [⟨r0_9, slab (View.ld x1 r0_0) (View.ld x2 r0_1) (View.ld x0 r0_9)⟩,
      ⟨r0_8, slab (View.ld x1 r0_0) (View.ld x2 r0_1) (View.ld x0 r0_8)⟩,
      ⟨r0_7, slab (View.ld x1 r0_0) (View.ld x2 r0_1) (View.ld x0 r0_7)⟩,
      ⟨r0_6, slab (View.ld x1 r0_0) (View.ld x2 r0_1) (View.ld x0 r0_6)⟩,
      ⟨r0_5, slab (View.ld x1 r0_0) (View.ld x2 r0_1) (View.ld x0 r0_5)⟩,
      ⟨r0_4, slab (View.ld x1 r0_0) (View.ld x2 r0_1) (View.ld x0 r0_4)⟩,
      ⟨r0_3, slab (View.ld x1 r0_0) (View.ld x2 r0_1) (View.ld x0 r0_3)⟩,
      ⟨r0_2, slab (View.ld x1 r0_0) (View.ld x2 r0_1) (View.ld x0 r0_2)⟩] := rfl

/-- The contraction index of the body's matrix product is the feature number. -/
theorem lhs_row (j : S197x768.Idx) (q : dot_S197x768_S768x768_S197x768_1_0_0_1_n_n.contr.Idx) :
    (dot_S197x768_S768x768_S197x768_1_0_0_1_n_n.lhsIdx j q 0).val = (j 0).val := by
  unfold DotDims.lhsIdx
  rw [dif_neg (show ¬(0 : Fin S197x768.rank) ∈ dot_S197x768_S768x768_S197x768_1_0_0_1_n_n.lhsBatch by decide),
    dif_pos (show (0 : Fin S197x768.rank) ∈ dot_S197x768_S768x768_S197x768_1_0_0_1_n_n.lhsNonContracting by decide)]
  rfl

theorem rhs_col (j : S197x768.Idx) (q : dot_S197x768_S768x768_S197x768_1_0_0_1_n_n.contr.Idx) :
    (dot_S197x768_S768x768_S197x768_1_0_0_1_n_n.rhsIdx j q 1).val = (j 1).val := by
  unfold DotDims.rhsIdx
  rw [dif_neg (show ¬(1 : Fin S768x768.rank) ∈ dot_S197x768_S768x768_S197x768_1_0_0_1_n_n.rhsBatch by decide),
    dif_pos (show (1 : Fin S768x768.rank) ∈ dot_S197x768_S768x768_S197x768_1_0_0_1_n_n.rhsNonContracting by decide)]
  rfl

/-- At the exact instance, entry (n, d) of an image's slab: the row's features against column d of the
    projection, summed, plus the table's entry. -/
theorem slab_apply (W : Vec Ideal S768x768 .f32) (A : Vec Ideal S197x768 .f32) (x : Vec Ideal S1x197x768 .bf16)
    (n : Fin 197) (d : Fin 768) :
    slab W A x (ix3 0 n d) = (∑ f : Fin 768, x (ix3 0 n f) * W (ix2 f d)) + A (ix2 n d) := by
  unfold slab
  refine (shapeCast_addUnit_apply ![197, 768] _ _ (ix3 0 n d)).trans ?_
  have hj : (fun a : Fin 2 => (ix3 (0 : Fin 1) n d) a.succ) = ix2 n d :=
    funext fun a => by match a with | ⟨0, _⟩ => rfl | ⟨1, _⟩ => rfl
  rw [hj]
  rw [addf_apply, shapeCast_self]
  simp only [matmul]
  rw [Ideal.matmul_constant_zero_apply,
    ← Equiv.sum_comp (contrEquiv1 dot_S197x768_S768x768_S197x768_1_0_0_1_n_n 768 rfl rfl).symm]
  congr 1
  refine Finset.sum_congr rfl fun f _ => ?_
  have hk := contrEquiv1_symm_val dot_S197x768_S768x768_S197x768_1_0_0_1_n_n 768 rfl rfl f
  have el : dot_S197x768_S768x768_S197x768_1_0_0_1_n_n.lhsIdx (ix2 n d)
      ((contrEquiv1 dot_S197x768_S768x768_S197x768_1_0_0_1_n_n 768 rfl rfl).symm f) = ix2 n f :=
    funext fun a => Fin.ext (by
      match a with
      | ⟨0, _⟩ => exact lhs_row _ _
      | ⟨1, _⟩ => exact (dot_S197x768_S768x768_S197x768_1_0_0_1_n_n.lhsIdx_val_of_single rfl _ _).trans hk)
  have er : dot_S197x768_S768x768_S197x768_1_0_0_1_n_n.rhsIdx (ix2 n d)
      ((contrEquiv1 dot_S197x768_S768x768_S197x768_1_0_0_1_n_n 768 rfl rfl).symm f) = ix2 f d :=
    funext fun a => Fin.ext (by
      match a with
      | ⟨0, _⟩ => exact (dot_S197x768_S768x768_S197x768_1_0_0_1_n_n.rhsIdx_val_of_single rfl _ _).trans hk
      | ⟨1, _⟩ => exact rhs_col _ _)
  rw [el, er, truncf_apply]
  congr 1
  refine (shapeCast_dropUnit_apply ![197, 768] x _ (ix2 n f)).trans (congrArg x (funext fun a => ?_))
  match a with
  | ⟨0, _⟩ => rfl
  | ⟨1, _⟩ => rfl
  | ⟨2, _⟩ => rfl

/-! ## A whole block, and a whole array, as one function -/

/-- Rows times projection plus table, for a batch of `B` images: entry (b, n, d) is
    sum_f X[b, n, f] * W[f, d] + A[n, d]. -/
def affine {B : Nat} (X : (⟨3, ![B, 197, 768]⟩ : Shape).Idx → EReal) (W : (⟨2, ![768, 768]⟩ : Shape).Idx → EReal)
    (A : (⟨2, ![197, 768]⟩ : Shape).Idx → EReal) : (⟨3, ![B, 197, 768]⟩ : Shape).Idx → EReal :=
  fun i => (∑ f : Fin 768, X (ix3 (i 0) (i 1) f) * W (ix2 f (i 2))) + A (ix2 (i 1) (i 2))

theorem affine_apply {B : Nat} (X : (⟨3, ![B, 197, 768]⟩ : Shape).Idx → EReal) (W : (⟨2, ![768, 768]⟩ : Shape).Idx → EReal)
    (A : (⟨2, ![197, 768]⟩ : Shape).Idx → EReal) (b : Fin B) (n : Fin 197) (d : Fin 768) :
    affine X W A (ix3 b n d) = (∑ f : Fin 768, X (ix3 b n f) * W (ix2 f d)) + A (ix2 n d) := rfl

/-- The store of image `k` of the block holds image `k` of `affine` of the block's inputs. -/
theorem slab_piece (x0 : Vec Ideal S8x197x768 .bf16) (x1 : Vec Ideal S768x768 .f32) (x2 : Vec Ideal S197x768 .f32)
    (k : Nat) (inb : ∀ a, (![k, 0, 0] : Fin 3 → Nat) a + S1x197x768.size a ≤ S8x197x768.size a) (x : S1x197x768.Idx) :
    slab (View.ld x1 r0_0) (View.ld x2 r0_1) (View.ld x0 (Rect.unit (s := S8x197x768) ![k, 0, 0] S1x197x768.size inb)) x
      = affine (B := 8) x0 x1 x2 ((Rect.unit (s := S8x197x768) ![k, 0, 0] S1x197x768.size inb).emb x) := by
  have hz : (![0, 0] : Fin 2 → Nat) = fun _ => 0 := funext fun a => by fin_cases a <;> rfl
  rw [View.ld_unit_zero (S := S768x768) hz, View.ld_unit_zero (S := S197x768) hz]
  obtain ⟨z, n, d, rfl⟩ : ∃ (z : Fin 1) (n : Fin 197) (d : Fin 768), x = ix3 z n d := ⟨x 0, x 1, x 2, eq_ix3 x⟩
  have hz0 : z = 0 := Subsingleton.elim _ _
  subst hz0
  rw [slab_apply]
  have hk : k < 8 := by have h := inb 0; have h' : k + 1 ≤ 8 := h; omega
  have he : (Rect.unit (s := S8x197x768) ![k, 0, 0] S1x197x768.size inb).emb (ix3 0 n d) = ix3 (⟨k, hk⟩ : Fin 8) n d :=
    funext fun a => Fin.ext (by
      match a with
      | ⟨0, _⟩ => show k + 1 * 0 = k; omega
      | ⟨1, _⟩ => show 0 + 1 * n.val = n.val; omega
      | ⟨2, _⟩ => show 0 + 1 * d.val = d.val; omega)
  rw [he, affine_apply]
  congr 1
  refine Finset.sum_congr rfl fun f _ => ?_
  congr 1
  refine congrArg x0 (funext fun a => Fin.ext ?_)
  match a with
  | ⟨0, _⟩ => show k + 1 * 0 = k; omega
  | ⟨1, _⟩ => show 0 + 1 * n.val = n.val; omega
  | ⟨2, _⟩ => show 0 + 1 * f.val = f.val; omega

/-- The block the body leaves is `affine` of the block's inputs: each of the eight stores is one image of it,
    and together they cover the block. -/
theorem block_eq (x0 : Vec Ideal S8x197x768 .bf16) (x1 : Vec Ideal S768x768 .f32) (x2 : Vec Ideal S197x768 .f32) :
    out0_3 x0 x1 x2 = affine (B := 8) x0 x1 x2 := by
  funext y
  rw [out_eq_slabs]
  refine View.canon_apply_of_pieces (Val := Elt Ideal) (S := S8x197x768) (e := .f32) (affine (B := 8) x0 x1 x2) _ (fun p hp x => ?_) y (cover0_3 _ _ _ _ _ _ _ _ y)
  simp only [List.mem_cons, List.not_mem_nil, or_false] at hp
  rcases hp with rfl | rfl | rfl | rfl | rfl | rfl | rfl | rfl
  all_goals exact slab_piece x0 x1 x2 _ _ x

/-- A block of a batch: if the block's rows are the batch's rows of images i0.., read at matching positions, and the
    projection and table are shared, the block's `affine` entry is the batch's. -/
theorem affine_block {X : (⟨3, ![64, 197, 768]⟩ : Shape).Idx → EReal} {W : (⟨2, ![768, 768]⟩ : Shape).Idx → EReal}
    {A : (⟨2, ![197, 768]⟩ : Shape).Idx → EReal}
    (x0 : (⟨3, ![8, 197, 768]⟩ : Shape).Idx → EReal) (x1 : (⟨2, ![768, 768]⟩ : Shape).Idx → EReal)
    (x2 : (⟨2, ![197, 768]⟩ : Shape).Idx → EReal)
    (y : (⟨3, ![8, 197, 768]⟩ : Shape).Idx) (i : (⟨3, ![64, 197, 768]⟩ : Shape).Idx)
    (h1 : x1 = W) (h2 : x2 = A) (hn : (i 1).val = (y 1).val) (hd : (i 2).val = (y 2).val)
    (h0 : ∀ f : Fin 768, x0 (ix3 (y 0) (y 1) f) = X (ix3 (i 0) (i 1) f)) :
    affine x0 x1 x2 y = affine X W A i := by
  have e1 : (y 1 : Fin 197) = i 1 := Fin.ext hn.symm
  have e2 : (y 2 : Fin 768) = i 2 := Fin.ext hd.symm
  show (∑ f : Fin 768, x0 (ix3 (y 0) (y 1) f) * x1 (ix2 f (y 2))) + x2 (ix2 (y 1) (y 2))
    = (∑ f : Fin 768, X (ix3 (i 0) (i 1) f) * W (ix2 f (i 2))) + A (ix2 (i 1) (i 2))
  congr 1
  · refine Finset.sum_congr rfl fun f _ => ?_
    rw [h0 f, h1, e2]
  · rw [h2, e1, e2]

end Cert.KernelIdeal.Tokens

end
-- ==== Proof.KernelValue.lean ====
/-
  From blocks to the array.  The grid has eight points; point t works on images 8t .. 8t+7: its first input
  block is those images' rows of the padded features, its other two input blocks are the whole projection and
  the whole table, and it writes back those images' rows of the output.  Each written block is the matching
  block of ONE array, `affine` of the three arrays the launch finds, and the eight blocks cover the output;
  so after the run the output array is that function.
-/
import proofs.«176291_j30305289240876_2_alg».proof.Proof.Gen.KernelIdeal.Value
import proofs.«176291_j30305289240876_2_alg».proof.Proof.Slab

noncomputable section

namespace Cert.KernelIdeal.Tokens

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The block index maps over the grid: the features and the output move with the point along the image axis;
    the projection and the table stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What the output array holds after the run, from the arrays the launch finds. -/
abbrev result (c : Dev nD) : S64x197x768.Idx → EReal :=
  affine (B := 64) (V m c main_v4 : S64x197x768.Idx → Elt Ideal .bf16) (V m c main_arg1 : S768x768.Idx → Elt Ideal .f32)
    (V m c main_v12 : S197x768.Idx → Elt Ideal .f32)

/-- Point `t` writes back block `t` of `result`. -/
theorem flushed_eq (c : Dev nD) (t : Fin cfg0.N) :
    (dats m 0 c).flushed 3 t = ((cfg0.win 3).blk t).view.read (Elt Ideal) (result m c) := by
  rw [Value.flushed3, block_eq]
  obtain ⟨e00, e01, e02, e10, e11, e20, e21, e30, e31, e32⟩ := idx_facts t
  funext y
  show affine (B := 8) (iblk m c 0 t) (iblk m c 1 t) (iblk m c 2 t) y = result m c (((cfg0.win 3).blk t).view.emb y)
  have hy0 : (y 0).val < 8 := (y 0).isLt
  have hy1 : (y 1).val < 197 := (y 1).isLt
  have hy2 : (y 2).val < 768 := (y 2).isLt
  refine affine_block _ _ _ y _ ?_ ?_ ?_ ?_ (fun f => ?_)
  · funext z
    show V m c main_arg1 (((cfg0.win 1).blk t).view.emb z) = V m c main_arg1 z
    refine congrArg _ (funext fun a => Fin.ext ?_)
    match a with
    | ⟨0, _⟩ => show win0_1.index t (0 : Fin 2) * 768 + 1 * (z 0).val = (z 0).val; rw [e10]; omega
    | ⟨1, _⟩ => show win0_1.index t (1 : Fin 2) * 768 + 1 * (z 1).val = (z 1).val; rw [e11]; omega
  · funext z
    show V m c main_v12 (((cfg0.win 2).blk t).view.emb z) = V m c main_v12 z
    refine congrArg _ (funext fun a => Fin.ext ?_)
    match a with
    | ⟨0, _⟩ => show win0_2.index t (0 : Fin 2) * 197 + 1 * (z 0).val = (z 0).val; rw [e20]; omega
    | ⟨1, _⟩ => show win0_2.index t (1 : Fin 2) * 768 + 1 * (z 1).val = (z 1).val; rw [e21]; omega
  · show win0_3.index t (1 : Fin 3) * 197 + 1 * (y 1).val = (y 1).val; rw [e31]; omega
  · show win0_3.index t (2 : Fin 3) * 768 + 1 * (y 2).val = (y 2).val; rw [e32]; omega
  · show V m c main_v4 (((cfg0.win 0).blk t).view.emb (ix3 (y 0) (y 1) f)) = V m c main_v4 _
    refine congrArg _ (funext fun a => Fin.ext ?_)
    match a with
    | ⟨0, _⟩ => show win0_0.index t (0 : Fin 3) * 8 + 1 * (y 0).val = win0_3.index t (0 : Fin 3) * 8 + 1 * (y 0).val; rw [e00, e30]
    | ⟨1, _⟩ => show win0_0.index t (1 : Fin 3) * 197 + 1 * (y 1).val = win0_3.index t (1 : Fin 3) * 197 + 1 * (y 1).val; rw [e01, e31]
    | ⟨2, _⟩ => show win0_0.index t (2 : Fin 3) * 768 + 1 * f.val = f.val; rw [e02]; omega

/-- An index of the output is in point `t`'s block iff each coordinate is in the block's range. -/
theorem mem_blk (t : Fin cfg0.N) (i : S64x197x768.Idx) :
    i ∈ ((cfg0.win 3).blk t).view.set ↔ ∀ a : Fin 3, win0_3.index t a * S8x197x768.size a ≤ (i a).val
      ∧ (i a).val < win0_3.index t a * S8x197x768.size a + S8x197x768.size a := by
  show i ∈ ((View.whole main_v13).slice (win0_3.rect t)).set ↔ _
  rw [View.set_slice_whole, Rect.mem_set_unit]
  exact Iff.rfl

/-- Image b lies in the block of point b / 8. -/
theorem covered (i : S64x197x768.Idx) :
    ∃ t : Fin cfg0.N, (cfg0.win 3).flush t = true ∧ i ∈ ((cfg0.win 3).blk t).view.set := by
  have h0 : (i 0).val < 64 := (i 0).isLt
  have h1 : (i 1).val < 197 := (i 1).isLt
  have h2 : (i 2).val < 768 := (i 2).isLt
  have hN : grid0.N = 8 := N_0
  have hlt : (i 0).val / 8 < grid0.N := by rw [hN]; omega
  obtain ⟨-, -, -, -, -, -, -, e30, e31, e32⟩ := idx_facts ⟨(i 0).val / 8, hlt⟩
  have e30' : win0_3.index ⟨(i 0).val / 8, hlt⟩ (0 : Fin 3) = (i 0).val / 8 := e30
  refine ⟨⟨(i 0).val / 8, hlt⟩, flush0_3 _, ?_⟩
  rw [mem_blk]
  intro a
  match a with
  | ⟨0, _⟩ =>
    show win0_3.index ⟨(i 0).val / 8, hlt⟩ (0 : Fin 3) * 8 ≤ (i 0).val ∧ (i 0).val < win0_3.index ⟨(i 0).val / 8, hlt⟩ (0 : Fin 3) * 8 + 8
    rw [e30']; omega
  | ⟨1, _⟩ =>
    show win0_3.index ⟨(i 0).val / 8, hlt⟩ (1 : Fin 3) * 197 ≤ (i 1).val ∧ (i 1).val < win0_3.index ⟨(i 0).val / 8, hlt⟩ (1 : Fin 3) * 197 + 197
    rw [e31]; omega
  | ⟨2, _⟩ =>
    show win0_3.index ⟨(i 0).val / 8, hlt⟩ (2 : Fin 3) * 768 ≤ (i 2).val ∧ (i 2).val < win0_3.index ⟨(i 0).val / 8, hlt⟩ (2 : Fin 3) * 768 + 768
    rw [e32]; omega

/-- The output array after the run. -/
theorem final (c : Dev nD) : (dats m 0 c).arrAt 3 cfg0.N = result m c :=
  (dats m 0 c).arrAt_eq_of_cover 3 (result m c) (fun t _ => flushed_eq m c t) covered

/-- The kernel's run with the output named: `result`, the arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Tokens

end
-- ==== Proof.HostArrays.lean ====
/-
  The two arrays the host code prepares for the kernel launch, as functions of the arguments.
  `padded`: the image batch cut into 196 patches of 768 features each, with one extra row put in front of
  every image's patches; the extra row holds the converted integer 0.  `table`: 197 rows of 768; row 0 is
  the class token plus row 0 of the position table, row n ≥ 1 is the bias plus row n of the position table.
  Read at the exact instance: the front row of `padded` is 0 and row k+1 is patch k; the rows of `table`
  are as just said.
-/
import proofs.«176291_j30305289240876_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run

noncomputable section

namespace Cert.KernelIdeal.Tokens

open Cert.KernelIdeal Cert.KernelIdeal.Gen Idealize.ShloMosaic Idealize.ShloMosaic.TcCoe Idealize.SL.Sem
open Idealize.ShloMosaic.ValueIdx

variable {F : FTy → Type} [FloatOps F]

/-- The patch features: image b, patch (i, j) of the 14 x 14 grid, feature (channel, row, column) of the
    16 x 16 patch — a regrouping of the image's axes, a transposition, and a regrouping back. -/
def patches (x : Vec F S64x3x224x224 .f32) : FVec F S64x196x768 .f32 :=
  shapeCast S64x196x768
    (transpose S64x14x14x3x16x16 [0, 2, 4, 1, 3, 5]
      (shapeCast S64x3x14x16x14x16 x shapeCasts_S64x3x224x224_S64x3x14x16x14x16)
      transposes_S64x3x14x16x14x16_S64x14x14x3x16x16_0_2_4_1_3_5)
    shapeCasts_S64x14x14x3x16x16_S64x196x768

/-- The patch features with one row of the converted integer 0 in front of every image's, as bf16. -/
def padded (x : Vec F S64x3x224x224 .f32) : FVec F S64x197x768 .bf16 :=
  truncf .bf16 (pad S64x197x768 ![0, 1, 0] ![0, 0, 0] ![0, 0, 0] (patches x) (sitofp .f32 (constantI S_ 32 0#32))
    pads_S64x196x768_S64x197x768_000_100_000 h_S_) bitsLt_bf16_f32

/-- The additive table: class token plus position 0 on top of bias plus positions 1 to 196. -/
def table (bias : Vec F S768 .f32) (pos : Vec F S197x768 .f32) (cls : Vec F S1x1x768 .f32) : FVec F S197x768 .f32 :=
  concatenate S197x768 0
    [⟨S1x768, addf (shapeCast S1x768 cls shapeCasts_S1x1x768_S1x768) (extractStridedSlice S1x768 ![0, 0] pos slices_S197x768_S1x768_0_0)⟩,
     ⟨S196x768, addf (broadcastInDim S196x768 ![0, 1] bcast_S1x768_S196x768_0_1 (broadcastInDim S1x768 ![1] bcast_S768_S1x768_1 bias))
        (extractStridedSlice S196x768 ![1, 0] pos slices_S197x768_S196x768_1_0)⟩]
    concatenates_S1x768_S196x768_S197x768_d0

variable (m : (ℓ : Loc nD τ sig) → Buf (Elt F) ℓ)

/-- The launch finds the first operand's array at `padded` of the image batch. -/
theorem V_padded (c : Dev nD) :
    (V m c main_v4 : S64x197x768.Idx → Elt F .bf16) = padded (m ((c : Thread nD τ).loc main_arg0)) := by
  dsimp only [V]
  simp only [hostOps0, hostOps0_1, hostOps0_2, List.flatten_cons, List.flatten_nil, List.append_nil, List.cons_append,
    List.nil_append]
  after_results
  rfl

/-- The launch finds the third operand's array at `table` of bias, position table and class token. -/
theorem V_table (c : Dev nD) :
    (V m c main_v12 : S197x768.Idx → Elt F .f32)
      = table (m ((c : Thread nD τ).loc main_arg2)) (m ((c : Thread nD τ).loc main_arg3)) (m ((c : Thread nD τ).loc main_arg4)) := by
  dsimp only [V]
  simp only [hostOps0, hostOps0_1, hostOps0_2, List.flatten_cons, List.flatten_nil, List.append_nil, List.cons_append,
    List.nil_append]
  after_results
  rfl

end Cert.KernelIdeal.Tokens

end
-- ==== Proof.HostRows.lean ====
/-
  The launch's two prepared arrays read row by row at the exact instance.
  In `padded` the row put in front of every image is the integer 0 converted, which is the real 0; row k+1
  is patch k unchanged (the rounding to bf16 is the identity on exact values).  In `table` row 0 is the
  class token plus position 0 and row n ≥ 1 is the bias plus position n.
-/
import proofs.«176291_j30305289240876_2_alg».proof.Proof.HostArrays
import Idealize.ShloMosaic.PureOps.Ideal.Laws

noncomputable section

namespace Cert.KernelIdeal.Tokens

open Cert.KernelIdeal Cert.KernelIdeal.Gen Idealize.ShloMosaic Idealize.ShloMosaic.TcCoe Idealize.SL.Sem
open Idealize.ShloMosaic.ValueIdx

/-- The row in front of every image's patches holds 0. -/
theorem padded_front (x : Vec Ideal S64x3x224x224 .f32) (b : Fin 64) (n : Fin 197) (f : Fin 768) (h : n.val = 0) :
    padded x (ix3 b n f) = 0 := by
  unfold padded
  rw [truncf_apply]
  refine (pad_apply_of_not_inside ![0, 1, 0] ![0, 0, 0] ![0, 0, 0] (patches x) (sitofp .f32 (constantI S_ 32 0#32))
    pads_S64x196x768_S64x197x768_000_100_000 h_S_ (ix3 b n f) (1 : Fin 3) ?_).trans ?_
  · rintro ⟨h1, -, -⟩
    have h1' : 1 ≤ n.val := h1
    omega
  · show ((((0#32 : BitVec 32).toInt : ℤ) : ℝ) : EReal) = 0
    simp

/-- Row k+1 of an image is its patch k. -/
theorem padded_patch (x : Vec Ideal S64x3x224x224 .f32) (b : Fin 64) (n : Fin 197) (k : Fin 196) (f : Fin 768)
    (h : n.val = k.val + 1) : padded x (ix3 b n f) = patches x (ix3 b k f) := by
  unfold padded
  rw [truncf_apply]
  refine pad_apply_of_inside ![0, 1, 0] ![0, 0, 0] ![0, 0, 0] (patches x) _
    pads_S64x196x768_S64x197x768_000_100_000 h_S_ (ix3 b n f) (ix3 b k f) (fun a => ?_)
  match a with
  | ⟨0, _⟩ => show b.val = 0 + b.val * (0 + 1); omega
  | ⟨1, _⟩ => show n.val = 1 + k.val * (0 + 1); omega
  | ⟨2, _⟩ => show f.val = 0 + f.val * (0 + 1); omega

/-- The table's row 0: class token plus position 0. -/
theorem table_top (bias : Vec Ideal S768 .f32) (pos : Vec Ideal S197x768 .f32) (cls : Vec Ideal S1x1x768 .f32)
    (n : Fin 197) (d : Fin 768) (h : n.val = 0) :
    table bias pos cls (ix2 n d) = cls (ix3 0 0 d) + pos (ix2 n d) := by
  unfold table
  refine (concatenate_pair_apply_left (t := S197x768) (s₁ := S1x768) (s₂ := S196x768) (0 : Fin 2) _ _ concatenates_S1x768_S196x768_S197x768_d0 (ix2 n d) rfl
    (ix2 (0 : Fin 1) d) (fun a => ?_)).trans ?_
  · match a with
    | ⟨0, _⟩ => show 0 = n.val; omega
    | ⟨1, _⟩ => rfl
  · rw [addf_apply]
    congr 1
    · refine (shapeCast_dropUnit_apply ![1, 768] cls shapeCasts_S1x1x768_S1x768 (ix2 (0 : Fin 1) d)).trans
        (congrArg cls (funext fun a => ?_))
      match a with
      | ⟨0, _⟩ => rfl
      | ⟨1, _⟩ => rfl
      | ⟨2, _⟩ => rfl
    · refine extractStridedSlice_apply ![0, 0] pos slices_S197x768_S1x768_0_0 (ix2 (0 : Fin 1) d) (ix2 n d) (fun a => ?_)
      match a with
      | ⟨0, _⟩ => show n.val = 0 + 0; omega
      | ⟨1, _⟩ => show d.val = 0 + d.val; omega

/-- The table's row n ≥ 1: bias plus position n. -/
theorem table_rest (bias : Vec Ideal S768 .f32) (pos : Vec Ideal S197x768 .f32) (cls : Vec Ideal S1x1x768 .f32)
    (n : Fin 197) (d : Fin 768) (h : n.val ≠ 0) :
    table bias pos cls (ix2 n d) = bias (ix1 d) + pos (ix2 n d) := by
  unfold table
  have hn : n.val < 197 := n.isLt
  refine (concatenate_pair_apply_right (t := S197x768) (s₁ := S1x768) (s₂ := S196x768) (0 : Fin 2) _ _ concatenates_S1x768_S196x768_S197x768_d0 (ix2 n d) rfl rfl
    (ix2 (⟨n.val - 1, by omega⟩ : Fin 196) d) (fun a ha => ?_) ?_).trans ?_
  · match a with
    | ⟨0, _⟩ => exact absurd rfl ha
    | ⟨1, _⟩ => rfl
  · show n.val - 1 + 1 = n.val; omega
  · rw [addf_apply]
    congr 1
    · refine (broadcastInDim_apply _ bcast_S1x768_S196x768_0_1 _ (ix2 (⟨n.val - 1, by omega⟩ : Fin 196) d)
        (ix2 (0 : Fin 1) d) (fun a => ?_)).trans
        (broadcastInDim_apply _ bcast_S768_S1x768_1 bias (ix2 (0 : Fin 1) d) (ix1 d) (fun a => ?_))
      · match a with
        | ⟨0, _⟩ => show 0 = if (1 : Nat) = 1 then 0 else n.val - 1; rw [if_pos rfl]
        | ⟨1, _⟩ => show d.val = if (768 : Nat) = 1 then 0 else d.val; rw [if_neg (by decide)]
      · match a with
        | ⟨0, _⟩ => show d.val = if (768 : Nat) = 1 then 0 else d.val; rw [if_neg (by decide)]
    · refine extractStridedSlice_apply ![1, 0] pos slices_S197x768_S196x768_1_0 (ix2 (⟨n.val - 1, by omega⟩ : Fin 196) d)
        (ix2 n d) (fun a => ?_)
      match a with
      | ⟨0, _⟩ => show n.val = 1 + (n.val - 1); omega
      | ⟨1, _⟩ => show d.val = 0 + d.val; omega

end Cert.KernelIdeal.Tokens

end
-- ==== Proof.Spec.lean ====
/-
  The token array, as one function of the arguments.  For image b, token row n and column d:
    row 0      is the class token plus position 0:        cls[d] + pos[0, d]
    row n >= 1 is patch n-1 projected, biased, positioned: (sum_f P[b, n-1, f] * W[f, d] + bias[d]) + pos[n, d]
  where P is the 64 x 196 x 768 array of patch features.  One program computes exactly this.  The other
  pads P with a zero row in front (X), builds the table A with A[0] = cls + pos[0] and A[n] = bias + pos[n],
  and computes  sum_f X[b, n, f] * W[f, d] + A[n, d].  On the extended reals the two agree:
  row 0 because 0 * w = 0 for every extended real w, so the sum is 0 and 0 + a = a; the other rows because
  addition is associative.  Neither step needs finiteness.
-/
import Idealize.ShloMosaic.PureOps.Ideal
import Idealize.ShloMosaic.Lib.ValueIdx

noncomputable section

namespace Cert.TokenSpec

open Idealize.ShloMosaic Idealize.ShloMosaic.ValueIdx

/-- Entry (b, n, d) of the token array from the patch features, projection, bias, position table and class token. -/
def tokens (P : (⟨3, ![64, 196, 768]⟩ : Shape).Idx → EReal) (W : (⟨2, ![768, 768]⟩ : Shape).Idx → EReal)
    (bias : (⟨1, ![768]⟩ : Shape).Idx → EReal) (pos : (⟨2, ![197, 768]⟩ : Shape).Idx → EReal)
    (cls : (⟨3, ![1, 1, 768]⟩ : Shape).Idx → EReal) : (⟨3, ![64, 197, 768]⟩ : Shape).Idx → EReal := fun i =>
  if h : (i 1).val = 0 then cls (ix3 0 0 (i 2)) + pos (ix2 (i 1) (i 2))
  else (∑ f : Fin 768, P (ix3 (i 0) ⟨(i 1).val - 1, by have h1 : (i 1).val < 197 := (i 1).isLt; omega⟩ f) * W (ix2 f (i 2)))
      + bias (ix1 (i 2)) + pos (ix2 (i 1) (i 2))

/-- The padded-features form agrees with `tokens`: `X` is `P` with a zero row in front of every image,
    `A` the table whose row 0 is class token plus position 0 and whose row n ≥ 1 is bias plus position n. -/
theorem padded_eq_tokens (P : (⟨3, ![64, 196, 768]⟩ : Shape).Idx → EReal) (W : (⟨2, ![768, 768]⟩ : Shape).Idx → EReal)
    (bias : (⟨1, ![768]⟩ : Shape).Idx → EReal) (pos : (⟨2, ![197, 768]⟩ : Shape).Idx → EReal)
    (cls : (⟨3, ![1, 1, 768]⟩ : Shape).Idx → EReal)
    (X : (⟨3, ![64, 197, 768]⟩ : Shape).Idx → EReal) (A : (⟨2, ![197, 768]⟩ : Shape).Idx → EReal)
    (hX0 : ∀ (b : Fin 64) (n : Fin 197) (f : Fin 768), n.val = 0 → X (ix3 b n f) = 0)
    (hXs : ∀ (b : Fin 64) (n : Fin 197) (k : Fin 196) (f : Fin 768), n.val = k.val + 1 → X (ix3 b n f) = P (ix3 b k f))
    (hA0 : ∀ (n : Fin 197) (d : Fin 768), n.val = 0 → A (ix2 n d) = cls (ix3 0 0 d) + pos (ix2 n d))
    (hAs : ∀ (n : Fin 197) (d : Fin 768), n.val ≠ 0 → A (ix2 n d) = bias (ix1 d) + pos (ix2 n d))
    (b : Fin 64) (n : Fin 197) (d : Fin 768) :
    (∑ f : Fin 768, X (ix3 b n f) * W (ix2 f d)) + A (ix2 n d) = tokens P W bias pos cls (ix3 b n d) := by
  unfold tokens
  show _ = if h : n.val = 0 then cls (ix3 0 0 d) + pos (ix2 n d) else _
  by_cases h : n.val = 0
  · rw [dif_pos h, hA0 n d h]
    have hz : (∑ f : Fin 768, X (ix3 b n f) * W (ix2 f d)) = 0 :=
      Finset.sum_eq_zero fun f _ => by rw [hX0 b n f h, zero_mul]
    rw [hz, zero_add]
  · rw [dif_neg h, hAs n d h, ← add_assoc]
    congr 2
    refine Finset.sum_congr rfl fun f _ => ?_
    rw [hXs b n ⟨n.val - 1, by have := n.isLt; omega⟩ f (by show n.val = n.val - 1 + 1; omega)]

end Cert.TokenSpec

end
-- ==== Proof.KernelTokens.lean ====
/-
  The kernel's output is `tokens`.  After the run the output array is rows times projection plus table, over
  the padded patch features and the additive table the host code prepared.  The padded features are the
  patches with a zero row in front, the table is class token plus position 0 over bias plus positions; for
  such arrays rows-times-projection-plus-table is `tokens` (zero times anything is zero, and addition is
  associative).
-/
import proofs.«176291_j30305289240876_2_alg».proof.Proof.KernelValue
import proofs.«176291_j30305289240876_2_alg».proof.Proof.HostRows
import proofs.«176291_j30305289240876_2_alg».proof.Proof.Spec

noncomputable section

namespace Cert.KernelIdeal.Tokens

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The output array after the run is `tokens` of the patch features of the image batch and the other arguments. -/
theorem result_eq_tokens (c : Dev nD) :
    result m c = Cert.TokenSpec.tokens (patches (m ((c : Thread nD τ).loc main_arg0))) (m ((c : Thread nD τ).loc main_arg1))
      (m ((c : Thread nD τ).loc main_arg2)) (m ((c : Thread nD τ).loc main_arg3)) (m ((c : Thread nD τ).loc main_arg4)) := by
  funext i
  obtain ⟨b, n, d, rfl⟩ : ∃ (b : Fin 64) (n : Fin 197) (d : Fin 768), i = ix3 b n d := ⟨i 0, i 1, i 2, eq_ix3 i⟩
  show affine (B := 64) (V m c main_v4 : S64x197x768.Idx → Elt Ideal .bf16) (V m c main_arg1 : S768x768.Idx → Elt Ideal .f32)
    (V m c main_v12 : S197x768.Idx → Elt Ideal .f32) (ix3 b n d) = _
  rw [V_padded m c, V_main_arg1 m c, V_table m c]
  exact (affine_apply _ _ _ b n d).trans
    (Cert.TokenSpec.padded_eq_tokens _ _ _ _ _ _ _
      (fun b n f h => padded_front _ b n f h) (fun b n k f h => padded_patch _ b n k f h)
      (fun n d h => table_top _ _ _ n d h) (fun n d h => table_rest _ _ _ n d h) b n d)

/-- The kernel's run with the output named `tokens` of the arguments, the arguments unchanged. -/
theorem run_tokens : θ_run defs (onTc (τ := τ) (main (F := Ideal))) ⟨m, fun _ => 0, ρ⟩ fun r => ∀ c : Dev nD,
      r.2.mem ((c : Thread nD τ).loc main_v13) = Cert.TokenSpec.tokens (patches (m ((c : Thread nD τ).loc main_arg0)))
        (m ((c : Thread nD τ).loc main_arg1)) (m ((c : Thread nD τ).loc main_arg2)) (m ((c : Thread nD τ).loc main_arg3))
        (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq_tokens m c), (h c).2⟩) (run m ρ)

end Cert.KernelIdeal.Tokens

end
-- ==== Proof.RefValue.lean ====
/-
  The reference computes `tokens`.  Its last operation adds the position table, broadcast over the images, to
  the concatenation along the token axis of the class token (broadcast to one row per image) and the projected
  patches plus bias.  Read at (b, n, d): row 0 comes from the first piece and is the class token's entry d;
  row n ≥ 1 comes from the second piece at row n-1 and is the contraction over the 768 features plus the bias
  entry d; the position entry (n, d) is added to either.  That is `tokens` of the reference's own patch array.
-/
import proofs.«176291_j30305289240876_2_alg».proof.Proof.Gen.ReferenceIdeal.Read
import proofs.«176291_j30305289240876_2_alg».proof.Proof.Spec

noncomputable section

namespace Cert.ReferenceIdeal.Tokens

open Cert.ReferenceIdeal Cert.ReferenceIdeal.Gen Cert.ReferenceIdeal.Read Idealize.ShloMosaic Idealize.ShloMosaic.TcCoe Idealize.SL.Sem
open Idealize.ShloMosaic.ValueIdx

/-- The reference's result is `tokens` of its patch array and the other four arguments. -/
theorem result_eq (x0 : (⟨S64x3x224x224, .f32⟩ : BufTy).Contents (Elt Ideal)) (x1 : (⟨S768x768, .f32⟩ : BufTy).Contents (Elt Ideal))
    (x2 : (⟨S768, .f32⟩ : BufTy).Contents (Elt Ideal)) (x3 : (⟨S197x768, .f32⟩ : BufTy).Contents (Elt Ideal))
    (x4 : (⟨S1x1x768, .f32⟩ : BufTy).Contents (Elt Ideal)) :
    val_main_v11 (F := Ideal) x0 x1 x2 x3 x4 = Cert.TokenSpec.tokens (val_main_v2 (F := Ideal) x0) x1 x2 x3 x4 := by
  funext i
  obtain ⟨b, n, d, rfl⟩ : ∃ (b : Fin 64) (n : Fin 197) (d : Fin 768), i = ix3 b n d := ⟨i 0, i 1, i 2, eq_ix3 i⟩
  have hn : n.val < 197 := n.isLt
  have hpos : val_main_v10 (F := Ideal) x3 (ix3 b n d) = x3 (ix2 n d) := by
    rw [val_main_v10_apply, val_main_v9_apply]
    refine congrArg x3 (funext fun a => Fin.ext ?_)
    match a with
    | ⟨0, _⟩ => rfl
    | ⟨1, _⟩ => rfl
  rw [val_main_v11_apply, hpos]
  unfold Cert.TokenSpec.tokens
  by_cases h : n.val = 0
  · rw [dif_pos (show ((ix3 b n d) 1).val = 0 from h)]
    show val_main_v8 (F := Ideal) x0 x1 x2 x4 (ix3 b n d) + x3 (ix2 n d) = x4 (ix3 0 0 d) + x3 (ix2 n d)
    congr 1
    unfold val_main_v8
    refine (concatenate_pair_apply_left (t := S64x197x768) (s₁ := S64x1x768) (s₂ := S64x196x768) (1 : Fin 3) _ _
      concatenates_S64x1x768_S64x196x768_S64x197x768_d1 (ix3 b n d) rfl (ix3 b (0 : Fin 1) d) (fun a => ?_)).trans ?_
    · match a with
      | ⟨0, _⟩ => rfl
      | ⟨1, _⟩ => show 0 = n.val; omega
      | ⟨2, _⟩ => rfl
    · rw [val_main_v7_apply]
      refine congrArg x4 (funext fun a => Fin.ext ?_)
      match a with
      | ⟨0, _⟩ => rfl
      | ⟨1, _⟩ => rfl
      | ⟨2, _⟩ => rfl
  · rw [dif_neg (show ¬ ((ix3 b n d) 1).val = 0 from h)]
    show val_main_v8 (F := Ideal) x0 x1 x2 x4 (ix3 b n d) + x3 (ix2 n d)
      = (∑ f : Fin 768, val_main_v2 (F := Ideal) x0 (ix3 b (⟨n.val - 1, by omega⟩ : Fin 196) f) * x1 (ix2 f d)) + x2 (ix1 d) + x3 (ix2 n d)
    congr 1
    unfold val_main_v8
    refine (concatenate_pair_apply_right (t := S64x197x768) (s₁ := S64x1x768) (s₂ := S64x196x768) (1 : Fin 3) _ _
      concatenates_S64x1x768_S64x196x768_S64x197x768_d1 (ix3 b n d) rfl rfl (ix3 b (⟨n.val - 1, by omega⟩ : Fin 196) d)
      (fun a ha => ?_) ?_).trans ?_
    · match a with
      | ⟨0, _⟩ => rfl
      | ⟨1, _⟩ => exact absurd rfl ha
      | ⟨2, _⟩ => rfl
    · show n.val - 1 + 1 = n.val; omega
    · rw [val_main_v6_apply, val_main_v3_apply, val_main_v5_apply, val_main_v4_apply]
      show (∑ k : Fin 768, _) + _ = _
      congr 1
      · refine Finset.sum_congr rfl fun f _ => ?_
        have el : lidx_main_v3 (ix3 b (⟨n.val - 1, by omega⟩ : Fin 196) d) f = ix3 b (⟨n.val - 1, by omega⟩ : Fin 196) f :=
          funext fun a => Fin.ext (by
            match a with
            | ⟨0, _⟩ => rfl
            | ⟨1, _⟩ => rfl
            | ⟨2, _⟩ => rfl)
        have er : ridx_main_v3 (ix3 b (⟨n.val - 1, by omega⟩ : Fin 196) d) f = ix2 f d :=
          funext fun a => Fin.ext (by
            match a with
            | ⟨0, _⟩ => rfl
            | ⟨1, _⟩ => rfl)
        rw [el, er]
      · refine congrArg x2 (funext fun a => Fin.ext ?_)
        match a with
        | ⟨0, _⟩ => rfl

end Cert.ReferenceIdeal.Tokens

end
-- ==== Proof.lean ====
/-
  Patch embedding with class token and positions: a fused kernel against its reference, over the extended reals.

  Both programs cut each of the 64 images into 196 patches of 768 features (the same three layout steps, so the
  same array P).  The reference projects the patches with W, adds the bias, puts the class token in front of
  each image's rows and adds the position table.  The kernel instead puts a ZERO row in front of each image's
  patches, builds one additive table (class token + position 0 on top of bias + positions 1..196), and in one
  pass per block of eight images computes rows x W + table, image by image.

  Entry (b, n, d) of either result is `TokenSpec.tokens`:  cls[d] + pos[0, d]  for n = 0, and
  (sum_f P[b, n-1, f] W[f, d] + bias[d]) + pos[n, d]  for n ≥ 1.  For the reference this is read off its run
  operation by operation.  For the kernel the output array is first shown to be rows x W + table of the two
  prepared arrays (every stored image slab is that function, and the eight blocks cover the output), and then
  the zero row contributes  sum_f 0 * W[f, d] = 0  — true for every extended real W[f, d] — while the other rows
  differ from the reference only in the bracketing of a sum of three terms.  No finiteness is used.

  The idealized kernel is the kernel's own text read exactly (no operation was rewritten), so the statement
  relating the two is trivial; the three frames are the generated frame runs (the reference's is its generated
  run with the result dropped).
-/
import proofs.«176291_j30305289240876_2_alg».proof.Defs
import proofs.«176291_j30305289240876_2_alg».proof.Proof.Gen.Kernel
import proofs.«176291_j30305289240876_2_alg».proof.Proof.Gen.Kernel.Frame
import proofs.«176291_j30305289240876_2_alg».proof.Proof.Gen.KernelIdeal
import proofs.«176291_j30305289240876_2_alg».proof.Proof.Gen.KernelIdeal.Frame
import proofs.«176291_j30305289240876_2_alg».proof.Proof.Gen.KernelIdeal.Value
import proofs.«176291_j30305289240876_2_alg».proof.Proof.Gen.ReferenceIdeal
import proofs.«176291_j30305289240876_2_alg».proof.Proof.Gen.ReferenceIdeal.Run
import proofs.«176291_j30305289240876_2_alg».proof.Proof.Gen.ReferenceIdeal.Read
import proofs.«176291_j30305289240876_2_alg».proof.Proof.Gen.Pre_finite_inputs
import proofs.«176291_j30305289240876_2_alg».proof.Proof.KernelTokens
import proofs.«176291_j30305289240876_2_alg».proof.Proof.RefValue
import Idealize.ShloMosaic.Adequacy
import Idealize.ShloMosaic.Init

noncomputable section

namespace Cert.Proof

open Idealize.ShloMosaic Idealize.ShloMosaic.TcCoe Idealize.SL.Sem

/-- Both programs cut the images into patches by the same three layout steps. -/
theorem patches_eq (x : (⟨4, ![64, 3, 224, 224]⟩ : Shape).Idx → EReal) :
    Cert.ReferenceIdeal.Read.val_main_v2 (F := Ideal) x = Cert.KernelIdeal.Tokens.patches (F := Ideal) x := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with the output at `tokens` of the arguments. -/
theorem algebraic : Cert.algebraic_KernelIdeal_ReferenceIdeal := by
  intro m ρ m' ρ' _ hagree
  refine ⟨_, Cert.KernelIdeal.Tokens.run_tokens m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.Tokens.result_eq, patches_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
